-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S1 : Shape := ⟨1, ![1]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S4096x2048 .f32) (main_arg1 : FVec F S8192x2048 .f32) (main_arg2 : FVec F S8192 .f32) (main_arg3 : FVec F S1 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S1 : Shape := ⟨1, ![1]⟩
abbrev S_ : Shape := ⟨0, ![]⟩
abbrev S1x1 : Shape := ⟨2, ![1, 1]⟩
abbrev S1x8192 : Shape := ⟨2, ![1, 8192]⟩
abbrev S4096x8192 : Shape := ⟨2, ![4096, 8192]⟩
abbrev S256x2048 : Shape := ⟨2, ![256, 2048]⟩
abbrev S512x2048 : Shape := ⟨2, ![512, 2048]⟩
abbrev S1x512 : Shape := ⟨2, ![1, 512]⟩
abbrev S256x512 : Shape := ⟨2, ![256, 512]⟩

abbrev nBuf : Space → Nat
  | .hbm => 19
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192, .f32⟩
  | .hbm, ⟨3, _⟩ => ⟨S1, .f32⟩
  | .hbm, ⟨4, _⟩ => ⟨S4096x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x1, .f32⟩
  | .hbm, ⟨15, _⟩ => ⟨S1x1, .f32⟩
  | .hbm, ⟨16, _⟩ => ⟨S1x1, .f32⟩
  | .hbm, ⟨17, _⟩ => ⟨S1x8192, .f32⟩
  | .hbm, ⟨18, _⟩ => ⟨S4096x8192, .f32⟩
  | .local _ .vmem, ⟨0, _⟩ => ⟨S256x2048, .f32⟩
  | .local _ .vmem, ⟨1, _⟩ => ⟨S256x2048, .f32⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S256x512, .f32⟩
  | .local _ .vmem, ⟨10, _⟩ => ⟨S256x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  reducesTo_S4096x2048_S_d0_1 : S4096x2048.ReducesTo [0, 1] S_
  h_S_ : 0 < S_.numel
  reducesTo_S8192x2048_S_d0_1 : S8192x2048.ReducesTo [0, 1] S_
  shapeCasts_S_S1x1 : S_.ShapeCasts S1x1
  shapeCasts_S1_S1x1 : S1.ShapeCasts S1x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x2048_S256x2048_0_0 : ∀ a, (![0, 0] : Fin 2 → Nat) a + S256x2048.size a ≤ S256x2048.size a
  h_S256x2048 : 0 < S256x2048.numel
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  dot_S256x2048_S512x2048_S256x512_1_1_0_0_n_n_wf : DotDims.WF S256x2048 S512x2048 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S4096x8192.size a
  hwx0_6 : ∀ i : grid0.Coords, EltTy.bits .f32 = 32 ∨ (Rect.block (s := S4096x8192) S256x512.size (cc0_transform_6 i) (hinb0_6 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S1 : Shape := ⟨1, ![1]⟩
abbrev S_ : Shape := ⟨0, ![]⟩
abbrev S4096x8192 : Shape := ⟨2, ![4096, 8192]⟩
abbrev S1x8192 : Shape := ⟨2, ![1, 8192]⟩
abbrev S1x1 : Shape := ⟨2, ![1, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S8192, .f32⟩
  | .hbm, ⟨3, _⟩ => ⟨S1, .f32⟩
  | .hbm, ⟨4, _⟩ => ⟨S4096x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S8192x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S4096x8192, .f32⟩
  | .hbm, ⟨41, _⟩ => ⟨S1x8192, .f32⟩
  | .hbm, ⟨42, _⟩ => ⟨S4096x8192, .f32⟩
  | .hbm, ⟨43, _⟩ => ⟨S4096x8192, .f32⟩
  | .hbm, ⟨44, _⟩ => ⟨S1x1, .f32⟩
  | .hbm, ⟨45, _⟩ => ⟨S4096x8192, .f32⟩
  | .hbm, ⟨46, _⟩ => ⟨S4096x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_cst_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_cst_6 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]

class Facts₀ : Prop where
  reducesTo_S4096x2048_S_d0_1 : S4096x2048.ReducesTo [0, 1] S_
  h_S_ : 0 < S_.numel
  bcast_S_S4096x2048 : S_.BroadcastsInDim S4096x2048 (![] : Fin 0 → Fin S4096x2048.rank)
  reducesTo_S8192x2048_S_d0_1 : S8192x2048.ReducesTo [0, 1] S_
  bcast_S_S8192x2048 : S_.BroadcastsInDim S8192x2048 (![] : Fin 0 → Fin S8192x2048.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S1_S1x1_1 : S1.BroadcastsInDim S1x1 (![1] : Fin 1 → Fin S1x1.rank)
  bcast_S1x1_S4096x8192_0_1 : S1x1.BroadcastsInDim S4096x8192 (![0, 1] : Fin 2 → Fin S4096x8192.rank)
  dot_S4096x2048_S8192x2048_S4096x8192_1_1_0_0_n_n_wf : DotDims.WF S4096x2048 S8192x2048 S4096x8192 [1] [1] [0] [0] [] []

variable [Facts₀]

def dot_S4096x2048_S8192x2048_S4096x8192_1_1_0_0_n_n : DotDims S4096x2048 S8192x2048 S4096x8192 where
  lhsContracting := [1]
  rhsContracting := [1]
  lhsNonContracting := [0]
  rhsNonContracting := [0]
  lhsBatch := []
  rhsBatch := []
  wf := dot_S4096x2048_S8192x2048_S4096x8192_1_1_0_0_n_n_wf

class Facts : Prop extends Facts₀ where

variable [Facts]
-- ==== Proof.QuantSpec.lean ====
/-
  The function both programs compute, on the extended reals.

  A tensor is fake-quantised entry by entry: the entry is divided by the tensor's scale, rounded to the nearest
  integer (ties to even), clamped between two bounds and multiplied back by the scale.  The result at row `r`,
  column `o` is the multiplier times (the inner product over the 2048 shared coordinates of row `r` of the quantised
  activations with row `o` of the quantised weights, plus the bias at `o`).  The two scales are parameters here:
  both programs compute them by the same host operations before anything else.
-/
import Idealize.ShloMosaic.PureOps.Ideal
import Idealize.ShloMosaic.Lib.ValueIdx

noncomputable section

namespace Cert.QuantLinear

open Idealize.ShloMosaic Idealize.ShloMosaic.ValueIdx

/-- One entry `v` fake-quantised at scale `s` between the bounds whose words are `lo` and `hi`. -/
def fq (lo hi : BitVec 32) (s v : EReal) : EReal :=
  min (Ideal.ofBits .f32 hi) (max (Ideal.ofBits .f32 lo) (Ideal.liftRound Ideal.roundHalfEven (Ideal.div v s))) * s

/-- The activations' quantiser: bounds -128 and 127. -/
abbrev fqAct (s v : EReal) : EReal := fq 0xC3000000#32 0x42FE0000#32 s v
/-- The weights' quantiser: bounds -127 and 127. -/
abbrev fqWgt (s v : EReal) : EReal := fq 0xC2FE0000#32 0x42FE0000#32 s v

/-- The result array: at `(r, o)`, `μ · (Σ_k fqAct sx x[r,k] · fqWgt sw w[o,k] + b[o])`. -/
def G (sx sw : EReal) (x : (⟨2, ![4096, 2048]⟩ : Shape).Idx → EReal) (w : (⟨2, ![8192, 2048]⟩ : Shape).Idx → EReal)
    (b : (⟨1, ![8192]⟩ : Shape).Idx → EReal) (μ : EReal) : (⟨2, ![4096, 8192]⟩ : Shape).Idx → EReal :=
  fun i => μ * ((∑ k : Fin 2048, fqAct sx (x (ix2 (i 0) k)) * fqWgt sw (w (ix2 (i 1) k))) + b (ix1 (i 1)))

end Cert.QuantLinear

end
-- ==== Proof.LibTileOps.lean ====
/-
  Three vector operations read at one entry, at the ideal values, beside those of the column-reduction file:
  a matrix product whose right factor is given transposed (both operands contracted along their columns),
  accumulated into the zero splat, as the sum over the contracted coordinate; the sum along the one row of a
  1 x n matrix; and a 1 x 1 matrix broadcast to a x b.  Each lemma is stated at an index written by its coordinates.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.TileOps

open Idealize.ShloMosaic Idealize.ShloMosaic.ValueIdx

/-- A product of an m×k matrix with the transpose of an n×k matrix (both contracted along their second coordinate),
    accumulated into the zero splat, read at entry (a, b): the sum over the contracted coordinate. -/
theorem matmul_nt_apply {m k n : ℕ} {φ₁ φ₂ : FTy}
    (w : DotDims.WF ⟨2, ![m, k]⟩ ⟨2, ![n, k]⟩ ⟨2, ![m, n]⟩ [1] [1] [0] [0] [] [])
    (A : FVec Ideal ⟨2, ![m, k]⟩ φ₁) (B : FVec Ideal ⟨2, ![n, k]⟩ φ₂) (a : Fin m) (b : Fin n) :
    matmul (⟨[1], [1], [0], [0], [], [], w⟩ : DotDims ⟨2, ![m, k]⟩ ⟨2, ![n, k]⟩ ⟨2, ![m, n]⟩) none A B
        (constant ⟨2, ![m, n]⟩ .f32 0x00000000#32) (ix2 a b)
      = ∑ c : Fin k, A (ix2 a c) * B (ix2 b c) := by
  show FloatOps.matmul _ none A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The source index over the one row with column `c` inserted is (0, c). -/
theorem lift_row {n : ℕ} (h : Shape.Reduces ⟨2, ![1, n]⟩ [1] ⟨1, ![1]⟩) (u : Fin 1) (c : Fin n) :
    h.lift (ix1 u) c = ix2 (0 : Fin 1) c := by
  funext ax; apply Fin.ext
  match ax with
  | ⟨0, _⟩ => show u.val = 0; omega
  | ⟨1, _⟩ => rfl

/-- The sum along the one row of a 1×n matrix, accumulated from the zero word. -/
theorem rowSum_apply {n : ℕ} (src : FVec Ideal ⟨2, ![1, n]⟩ .f32) (h : Shape.Reduces ⟨2, ![1, n]⟩ [1] ⟨1, ![1]⟩)
    (hφ : FKind.Formats .f32) (hacc : (0x00000000#32 : BitVec 32) = 0x00000000#32) (u : Fin 1) :
    multiReduction .add [1] ⟨1, ![1]⟩ src 0x00000000#32 h hφ hacc (ix1 u) = ∑ c : Fin n, src (ix2 (0 : Fin 1) c) := by
  refine (Ideal.multiReduction_add_single src 0x00000000#32 h hφ hacc (ix1 u)).trans ?_
  exact Finset.sum_congr rfl fun c _ => congrArg src (lift_row h u c)

/-- A `[1, 1]` array broadcast to `[a, b]` reads, everywhere, the operand's one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.TileOps

end
-- ==== Proof.BodyValue.lean ====
/-
  What the kernel body stores, read at one entry of its 256 x 512 output block: the multiplier times (the inner
  product of row `p` of the quantised activation block with row `q` of the quantised weight block, plus the bias
  block at `q`).  The three 1 x 1 blocks hold the activations' scale, the weights' scale and the multiplier.
-/
import proofs.«177678_j52742198395363_2_alg».proof.Proof.Gen.KernelIdeal.Skeleton
import proofs.«177678_j52742198395363_2_alg».proof.Proof.QuantSpec
import proofs.«177678_j52742198395363_2_alg».proof.Proof.LibTileOps
import Idealize.ShloMosaic.Lib.ValueLayout

noncomputable section

namespace Cert.KernelIdeal.Body

open Cert.KernelIdeal Cert.KernelIdeal.Gen Idealize.ShloMosaic Idealize.ShloMosaic.ValueIdx Cert.QuantLinear

/-- The one entry of a 1 x 1 block. -/
theorem extract00 {α : Type} (v : S1x1.Idx → α) (h : ∀ a, (![0, 0] : Fin 2 → Nat) a < S1x1.size a) :
    extractAt ![0, 0] v h = v (ix2 (0 : Fin 1) (0 : Fin 1)) :=
  congrArg v (funext fun a => by match a with | ⟨0, _⟩ => rfl | ⟨1, _⟩ => rfl)

theorem pay_apply (v0 v2 v4 : Vec Ideal S1x1 .f32) (v6 : Vec Ideal S256x2048 .f32) (v7 : Vec Ideal S512x2048 .f32)
    (v29 : Vec Ideal S1x512 .f32) (p : Fin 256) (q : Fin 512) :
    k0_pay1 (F := Ideal) v0 v2 v4 v6 v7 v29 (ix2 p q)
      = v4 (ix2 (0 : Fin 1) (0 : Fin 1)) * ((∑ c : Fin 2048, fqAct (v0 (ix2 (0 : Fin 1) (0 : Fin 1))) (v6 (ix2 p c))
          * fqWgt (v2 (ix2 (0 : Fin 1) (0 : Fin 1))) (v7 (ix2 q c))) + v29 (ix2 (0 : Fin 1) q)) := by
  unfold k0_pay1
  rw [mulf_apply, broadcast_apply, addf_apply, extract00 v4, extract00 v0, extract00 v2, shapeCast_self,
    broadcastTo_1b_ab_apply]
  refine congrArg (v4 (ix2 (0 : Fin 1) (0 : Fin 1)) * ·) (congrArg (· + v29 (ix2 (0 : Fin 1) q)) ?_)
  refine (Cert.TileOps.matmul_nt_apply dot_S256x2048_S512x2048_S256x512_1_1_0_0_n_n_wf _ _ p q).trans ?_
  exact Finset.sum_congr rfl fun c _ => rfl

end Cert.KernelIdeal.Body

end
-- ==== Proof.HostPrefix.lean ====
/-
  What the region finds in the four arrays the host writes before it: the two scales (the largest absolute value of
  a tensor divided by 128, resp. 127) each reshaped to a 1 x 1 array, the multiplier reshaped to 1 x 1 and the bias
  reshaped to one row, each read at an entry.
-/
import proofs.«177678_j52742198395363_2_alg».proof.Proof.Gen.KernelIdeal.Frame
import Idealize.ShloMosaic.Lib.StableHlo.Run
import Idealize.ShloMosaic.Lib.ValueLayout

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The activations' scale: the largest absolute value divided by 128. -/
def scaleAct (x : S4096x2048.Idx → EReal) : S_.Idx → EReal :=
  Host.divf (F := Ideal) (φ := .f32) (Host.reduce FloatOps.maximumf (Host.absf (F := Ideal) (φ := .f32) x)
    (constant (F := Ideal) S_ .f32 0xFF800000#32) reducesTo_S4096x2048_S_d0_1 h_S_) (constant (F := Ideal) S_ .f32 0x43000000#32)

/-- The weights' scale: the largest absolute value divided by 127. -/
def scaleWgt (w : S8192x2048.Idx → EReal) : S_.Idx → EReal :=
  Host.divf (F := Ideal) (φ := .f32) (Host.reduce FloatOps.maximumf (Host.absf (F := Ideal) (φ := .f32) w)
    (constant (F := Ideal) S_ .f32 0xFF800000#32) reducesTo_S8192x2048_S_d0_1 h_S_) (constant (F := Ideal) S_ .f32 0x42FE0000#32)

theorem V_scaleAct (c : Dev nD) : (V m c main_v6 : S1x1.Idx → EReal)
    = shapeCast S1x1 (scaleAct (m ((c : Thread nD τ).loc main_arg0))) shapeCasts_S_S1x1 := by
  dsimp only [Gen.V, Gen.hostOps0]; after_results; rfl

theorem V_scaleWgt (c : Dev nD) : (V m c main_v7 : S1x1.Idx → EReal)
    = shapeCast S1x1 (scaleWgt (m ((c : Thread nD τ).loc main_arg1))) shapeCasts_S_S1x1 := by
  dsimp only [Gen.V, Gen.hostOps0]; after_results; rfl

theorem V_mul (c : Dev nD) : (V m c main_v8 : S1x1.Idx → EReal)
    = shapeCast S1x1 (m ((c : Thread nD τ).loc main_arg3) : S1.Idx → EReal) shapeCasts_S1_S1x1 := by
  dsimp only [Gen.V, Gen.hostOps0]; after_results; rfl

theorem V_bias (c : Dev nD) : (V m c main_v9 : S1x8192.Idx → EReal)
    = shapeCast S1x8192 (m ((c : Thread nD τ).loc main_arg2) : S8192.Idx → EReal) shapeCasts_S8192_S1x8192 := by
  dsimp only [Gen.V, Gen.hostOps0]; after_results; rfl

/-- A scalar reshaped to 1 x 1, read at its one entry. -/
theorem scalar_as_11 {α : Type} (y : S_.Idx → α) (h : S_.ShapeCasts S1x1) (j : S1x1.Idx) :
    shapeCast S1x1 y h j = y ix0 := by
  unfold shapeCast
  exact congrArg y (eq_ix0 _)

theorem scaleAct_at (c : Dev nD) : (V m c main_v6 : S1x1.Idx → EReal) (ix2 (0 : Fin 1) (0 : Fin 1))
    = scaleAct (m ((c : Thread nD τ).loc main_arg0)) ix0 := by
  rw [V_scaleAct, scalar_as_11]

theorem scaleWgt_at (c : Dev nD) : (V m c main_v7 : S1x1.Idx → EReal) (ix2 (0 : Fin 1) (0 : Fin 1))
    = scaleWgt (m ((c : Thread nD τ).loc main_arg1)) ix0 := by
  rw [V_scaleWgt, scalar_as_11]

theorem mul_at (c : Dev nD) : (V m c main_v8 : S1x1.Idx → EReal) (ix2 (0 : Fin 1) (0 : Fin 1))
    = (m ((c : Thread nD τ).loc main_arg3) : S1.Idx → EReal) (ix1 (0 : Fin 1)) := by
  rw [V_mul, shapeCast_a_1a_apply]

theorem bias_at (c : Dev nD) (q : Fin 8192) : (V m c main_v9 : S1x8192.Idx → EReal) (ix2 (0 : Fin 1) q)
    = (m ((c : Thread nD τ).loc main_arg2) : S8192.Idx → EReal) (ix1 q) := by
  rw [V_bias, shapeCast_a_1a_apply]

end Cert.KernelIdeal.Prefix

end
-- ==== Proof.BlockCover.lean ====
/-
  From blocks to the whole result array.  Grid point `t` = (i, j) stages rows 256 i … 256 i + 255 of the activations,
  rows 512 j … 512 j + 511 of the weights, columns 512 j … of the bias row and the three 1 x 1 arrays, and writes back
  block (i, j) of the result; what it writes is that block of ONE function of the arrays (the specification at the
  host's two scales), and the 16 x 16 blocks tile the 4096 x 8192 result, so the array ends holding that function.
-/
import proofs.«177678_j52742198395363_2_alg».proof.Proof.Gen.KernelIdeal.Value
import proofs.«177678_j52742198395363_2_alg».proof.Proof.BodyValue
import proofs.«177678_j52742198395363_2_alg».proof.Proof.HostPrefix
import Idealize.ShloMosaic.Lib.Pipeline.Value
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.QuantLinear Cert.KernelIdeal.Body Cert.KernelIdeal.Prefix

variable (m : (ℓ : Loc nD τ sig) → Buf (Elt Ideal) ℓ) (ρ : Dev nD → PrngReg)

theorem hz : (![0, 0] : Fin 2 → Nat) = fun _ => 0 := funext fun a => by fin_cases a <;> rfl

/-- The result array as one function of the argument arrays: the specification at the host's two scales. -/
def result (c : Dev nD) : S4096x8192.Idx → EReal :=
  G (scaleAct (m ((c : Thread nD τ).loc main_arg0)) ix0) (scaleWgt (m ((c : Thread nD τ).loc main_arg1)) ix0)
    (m ((c : Thread nD τ).loc main_arg0)) (m ((c : Thread nD τ).loc main_arg1)) (m ((c : Thread nD τ).loc main_arg2))
    ((m ((c : Thread nD τ).loc main_arg3) : S1.Idx → EReal) (ix1 (0 : Fin 1)))

/-- The block indices at a grid point: the activations follow the output's row block, the weights and the bias its
    column block, the 1 x 1 arrays stay at block (0, 0); the output's block indices stay below 16. -/
theorem idx_facts : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = 0 ∧ win0_2.index t (1 : Fin 2) = win0_6.index t (1 : Fin 2)
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 15 ∧ win0_6.index t (1 : Fin 2) ≤ 15 :=
  (by decide +kernel : ∀ t : Fin grid0.N, _)

/-- Every block of the result is some point's. -/
theorem idx_onto : ∀ (q0 : Fin 16) (q1 : Fin 16), ∃ t : Fin cfg0.N, win0_6.index t = ![q0.val, q1.val] :=
  (by decide +kernel : ∀ (q0 : Fin 16) (q1 : Fin 16), ∃ t : Fin grid0.N, win0_6.index t = ![q0.val, q1.val])

/-- Row `p` of the activations' block at `t` is row `256 i + p` of the activations. -/
theorem act_blk (c : Dev nD) (t : Fin cfg0.N) (p : Fin 256) (k : Fin 2048) (r : Fin 4096)
    (hr : r.val = win0_6.index t (0 : Fin 2) * 256 + p.val) :
    (iblk m c 0 t : S256x2048.Idx → EReal) (ix2 p k)
      = (m ((c : Thread nD τ).loc main_arg0) : S4096x2048.Idx → EReal) (ix2 r k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 256 + 1 * p.val = r.val; omega
  | ⟨1, _⟩ => show win0_0.index t (1 : Fin 2) * 2048 + 1 * k.val = k.val; omega

/-- Row `q` of the weights' block at `t` is row `512 j + q` of the weights. -/
theorem wgt_blk (c : Dev nD) (t : Fin cfg0.N) (q : Fin 512) (k : Fin 2048) (o : Fin 8192)
    (ho : o.val = win0_6.index t (1 : Fin 2) * 512 + q.val) :
    (iblk m c 1 t : S512x2048.Idx → EReal) (ix2 q k)
      = (m ((c : Thread nD τ).loc main_arg1) : S8192x2048.Idx → EReal) (ix2 o k) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 512 + 1 * q.val = o.val; omega
  | ⟨1, _⟩ => show win0_1.index t (1 : Fin 2) * 2048 + 1 * k.val = k.val; omega

/-- Entry `q` of the bias block at `t` is the bias at `512 j + q`. -/
theorem bias_blk (c : Dev nD) (t : Fin cfg0.N) (q : Fin 512) (o : Fin 8192)
    (ho : o.val = win0_6.index t (1 : Fin 2) * 512 + q.val) :
    (iblk m c 2 t : S1x512.Idx → EReal) (ix2 (0 : Fin 1) q)
      = (m ((c : Thread nD τ).loc main_arg2) : S8192.Idx → EReal) (ix1 o) := by
  obtain ⟨-, -, -, -, e0, e1, -⟩ := idx_facts t
  unfold iblk
  rw [View.read_apply]
  show (V m c main_v9 : S1x8192.Idx → EReal) _ = _
  rw [← bias_at m c o]
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * q.val = o.val; omega

/-- The activations' scale block is the host's scale. -/
theorem scaleAct_blk (c : Dev nD) (t : Fin cfg0.N) :
    (iblk m c 3 t : S1x1.Idx → EReal) (ix2 (0 : Fin 1) (0 : Fin 1)) = scaleAct (m ((c : Thread nD τ).loc main_arg0)) ix0 := by
  obtain ⟨-, -, -, -, -, -, e0, e1, -⟩ := idx_facts t
  unfold iblk
  rw [View.read_apply]
  show (V m c main_v6 : S1x1.Idx → EReal) _ = _
  rw [← scaleAct_at m c]
  refine congrArg _ (funext fun a => Fin.ext ?_)
  match a with
  | ⟨0, _⟩ => show win0_3.index t (0 : Fin 2) * 1 + 1 * 0 = 0; omega
  | ⟨1, _⟩ => show win0_3.index t (1 : Fin 2) * 1 + 1 * 0 = 0; omega

/-- The weights' scale block is the host's scale. -/
theorem scaleWgt_blk (c : Dev nD) (t : Fin cfg0.N) :
    (iblk m c 4 t : S1x1.Idx → EReal) (ix2 (0 : Fin 1) (0 : Fin 1)) = scaleWgt (m ((c : Thread nD τ).loc main_arg1)) ix0 := by
  obtain ⟨-, -, -, -, -, -, -, -, e0, e1, -⟩ := idx_facts t
  unfold iblk
  rw [View.read_apply]
  show (V m c main_v7 : S1x1.Idx → EReal) _ = _
  rw [← scaleWgt_at m c]
  refine congrArg _ (funext fun a => Fin.ext ?_)
  match a with
  | ⟨0, _⟩ => show win0_4.index t (0 : Fin 2) * 1 + 1 * 0 = 0; omega
  | ⟨1, _⟩ => show win0_4.index t (1 : Fin 2) * 1 + 1 * 0 = 0; omega

/-- The multiplier's block is the multiplier. -/
theorem mul_blk (c : Dev nD) (t : Fin cfg0.N) :
    (iblk m c 5 t : S1x1.Idx → EReal) (ix2 (0 : Fin 1) (0 : Fin 1))
      = (m ((c : Thread nD τ).loc main_arg3) : S1.Idx → EReal) (ix1 (0 : Fin 1)) := by
  obtain ⟨-, -, -, -, -, -, -, -, -, -, e0, e1, -⟩ := idx_facts t
  unfold iblk
  rw [View.read_apply]
  show (V m c main_v8 : S1x1.Idx → EReal) _ = _
  rw [← mul_at m c]
  refine congrArg _ (funext fun a => Fin.ext ?_)
  match a with
  | ⟨0, _⟩ => show win0_5.index t (0 : Fin 2) * 1 + 1 * 0 = 0; omega
  | ⟨1, _⟩ => show win0_5.index t (1 : Fin 2) * 1 + 1 * 0 = 0; omega

/-- What point `t` writes back is block `t` of `result`. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz]
  simp only [View.ld_unit_zero (S := S256x2048) hz, View.ld_unit_zero (S := S512x2048) hz,
    View.ld_unit_zero (S := S1x512) hz, View.ld_unit_zero (S := S1x1) hz]
  funext j
  obtain ⟨p, q, rfl⟩ : ∃ (p : Fin 256) (q : Fin 512), j = ix2 p q := ⟨j 0, j 1, eq_ix2 j⟩
  obtain ⟨-, -, -, -, -, -, -, -, -, -, -, -, b0, b1⟩ := idx_facts t
  show k0_pay1 (F := Ideal) (iblk m c 3 t) (iblk m c 4 t) (iblk m c 5 t) (iblk m c 0 t) (iblk m c 1 t) (iblk m c 2 t) (ix2 p q)
    = result m c (((cfg0.win 6).blk t).view.emb (ix2 p q))
  refine (pay_apply _ _ _ _ _ _ p q).trans ?_
  have hr : (((cfg0.win 6).blk t).view.emb (ix2 p q) (0 : Fin 2)).val = win0_6.index t (0 : Fin 2) * 256 + p.val := by
    show win0_6.index t (0 : Fin 2) * 256 + 1 * p.val = _; omega
  have ho : (((cfg0.win 6).blk t).view.emb (ix2 p q) (1 : Fin 2)).val = win0_6.index t (1 : Fin 2) * 512 + q.val := by
    show win0_6.index t (1 : Fin 2) * 512 + 1 * q.val = _; omega
  unfold result G
  rw [mul_blk m c t, scaleAct_blk m c t, scaleWgt_blk m c t, bias_blk m c t q _ ho]
  refine congrArg _ (congrArg (· + _) (Finset.sum_congr rfl fun k _ => ?_))
  rw [act_blk m c t p k _ hr, wgt_blk m c t q k _ ho]

/-- An index of the result is in point `t`'s block iff each coordinate is in the block's range. -/
theorem mem_blk (t : Fin cfg0.N) (i : S4096x8192.Idx) :
    i ∈ ((cfg0.win 6).blk t).view.set ↔ ∀ a : Fin 2, win0_6.index t a * S256x512.size a ≤ (i a).val
      ∧ (i a).val < win0_6.index t a * S256x512.size a + S256x512.size a := by
  show i ∈ ((View.whole main_v10).slice (win0_6.rect t)).set ↔ _
  rw [View.set_slice_whole, Rect.mem_set_unit]
  exact Iff.rfl

/-- Every index of the result is in some point's block: the one of its row block and column block. -/
theorem cover (i : S4096x8192.Idx) :
    ∃ t : Fin cfg0.N, (cfg0.win 6).flush t = true ∧ i ∈ ((cfg0.win 6).blk t).view.set := by
  have hi0 : (i 0).val < 4096 := (i 0).isLt
  have hi1 : (i 1).val < 8192 := (i 1).isLt
  obtain ⟨t, ht⟩ := idx_onto ⟨(i 0).val / 256, by omega⟩ ⟨(i 1).val / 512, by omega⟩
  have q0 : win0_6.index t (0 : Fin 2) = (i 0).val / 256 := congrFun ht 0
  have q1 : win0_6.index t (1 : Fin 2) = (i 1).val / 512 := congrFun ht 1
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 512 ≤ (i 1).val ∧ (i 1).val < win0_6.index t (1 : Fin 2) * 512 + 512; omega

/-- So the result array ends holding `result`. -/
theorem final (c : Dev nD) : (dats m 0 c).arrAt 6 cfg0.N = result m c :=
  (dats m 0 c).arrAt_eq_of_cover 6 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefSide.lean ====
/-
  The reference's result is the specification: its operations read one at a time at an entry `(r, o)` give the
  multiplier times (the sum over the shared coordinate of quantised activation times quantised weight, plus the
  bias), with the two scales the reference's own scale stages.
-/
import proofs.«177678_j52742198395363_2_alg».proof.Proof.Gen.ReferenceIdeal.Read
import proofs.«177678_j52742198395363_2_alg».proof.Proof.QuantSpec

noncomputable section

namespace Cert.ReferenceIdeal.Spec

open Cert.ReferenceIdeal Cert.ReferenceIdeal.Gen Cert.ReferenceIdeal.Read Idealize.ShloMosaic Idealize.ShloMosaic.ValueIdx
open Cert.QuantLinear

theorem lidx_eq (i : S4096x8192.Idx) (k : Fin 2048) : lidx_main_v18 i k = ix2 (i 0) k :=
  funext fun a => by match a with | ⟨0, _⟩ => rfl | ⟨1, _⟩ => rfl
theorem ridx_eq (i : S4096x8192.Idx) (k : Fin 2048) : ridx_main_v18 i k = ix2 (i 1) k :=
  funext fun a => by match a with | ⟨0, _⟩ => rfl | ⟨1, _⟩ => rfl
theorem bias_idx_eq (i : S4096x8192.Idx) : idx_main_v19 (idx_main_v20 i) = ix1 (i 1) :=
  funext fun a => by match a with | ⟨0, _⟩ => rfl
theorem mul_idx_eq (i : S4096x8192.Idx) : idx_main_v22 (idx_main_v23 i) = ix1 (0 : Fin 1) :=
  funext fun a => by match a with | ⟨0, _⟩ => rfl

/-- A quantised activation entry, as the reference computes it. -/
theorem act_apply (x0 : (⟨S4096x2048, .f32⟩ : BufTy).Contents (Elt Ideal)) (j : S4096x2048.Idx) :
    val_main_v8 (F := Ideal) x0 j = fqAct (val_main_v2 (F := Ideal) x0 ix0) (x0 j) := by
  rw [val_main_v8_apply, val_main_v6_apply, val_main_call1_v4_apply, val_main_call1_v3_apply, val_main_cst_2_apply,
    val_main_call1_v2_apply, val_main_call1_v1_apply, val_main_call1_v0_apply, val_main_cst_1_apply, val_main_v5_apply,
    val_main_v4_apply, val_main_v3_apply, val_main_v7_apply]
  rfl

/-- A quantised weight entry, as the reference computes it. -/
theorem wgt_apply (x1 : (⟨S8192x2048, .f32⟩ : BufTy).Contents (Elt Ideal)) (j : S8192x2048.Idx) :
    val_main_v17 (F := Ideal) x1 j = fqWgt (val_main_v11 (F := Ideal) x1 ix0) (x1 j) := by
  rw [val_main_v17_apply, val_main_v15_apply, val_main_call3_v4_apply, val_main_call3_v3_apply, val_main_cst_6_apply,
    val_main_call3_v2_apply, val_main_call3_v1_apply, val_main_call3_v0_apply, val_main_cst_5_apply, val_main_v14_apply,
    val_main_v13_apply, val_main_v12_apply, val_main_v16_apply]
  rfl

/-- The reference's result array is the specification at the reference's two scales. -/
theorem result_eq (x0 : (⟨S4096x2048, .f32⟩ : BufTy).Contents (Elt Ideal)) (x1 : (⟨S8192x2048, .f32⟩ : BufTy).Contents (Elt Ideal))
    (x2 : (⟨S8192, .f32⟩ : BufTy).Contents (Elt Ideal)) (x3 : (⟨S1, .f32⟩ : BufTy).Contents (Elt Ideal)) :
    val_main_v24 (F := Ideal) x0 x1 x2 x3
      = G (val_main_v2 (F := Ideal) x0 ix0) (val_main_v11 (F := Ideal) x1 ix0) x0 x1 x2 (x3 (ix1 (0 : Fin 1))) := by
  funext i
  rw [val_main_v24_apply, val_main_v23_apply, val_main_v22_apply, val_main_v21_apply, val_main_v18_apply,
    val_main_v20_apply, val_main_v19_apply, bias_idx_eq, mul_idx_eq]
  simp only [act_apply, wgt_apply, lidx_eq, ridx_eq]
  rfl

end Cert.ReferenceIdeal.Spec

end
-- ==== Proof.lean ====
/- The proof of `Cert.Claim`.

   Both programs compute, at entry (r, o) of the result, the multiplier times (the sum over the 2048 shared
   coordinates of the fake-quantised activation x[r,k] times the fake-quantised weight w[o,k], plus the bias b[o]),
   the scales being the largest absolute value of each tensor divided by 128 and by 127 (Proof/QuantSpec.lean).
   The reference does so with one contraction over whole arrays (Proof/RefSide.lean); the kernel block by block over
   a 16 x 16 grid, each point one 256 x 512 block by a product of a 256 x 2048 block with the transpose of a 512 x 2048
   block (Proof/BodyValue.lean, Proof/HostPrefix.lean, Proof/BlockCover.lean).  At the ideal values a change of float
   format is the identity and a sum does not depend on its grouping, so the two are one function and no algebraic law
   beyond that is used: the finiteness of the inputs is never opened.  The idealization rewrote nothing, so its
   conjunct is `True`. -/
import proofs.«177678_j52742198395363_2_alg».proof.Defs
import proofs.«177678_j52742198395363_2_alg».proof.Proof.Gen.Kernel
import proofs.«177678_j52742198395363_2_alg».proof.Proof.Gen.Kernel.Skeleton
import proofs.«177678_j52742198395363_2_alg».proof.Proof.Gen.Kernel.Launch
import proofs.«177678_j52742198395363_2_alg».proof.Proof.Gen.Kernel.Points
import proofs.«177678_j52742198395363_2_alg».proof.Proof.Gen.Kernel.Frame
import proofs.«177678_j52742198395363_2_alg».proof.Proof.Gen.KernelIdeal
import proofs.«177678_j52742198395363_2_alg».proof.Proof.Gen.KernelIdeal.Skeleton
import proofs.«177678_j52742198395363_2_alg».proof.Proof.Gen.KernelIdeal.Launch
import proofs.«177678_j52742198395363_2_alg».proof.Proof.Gen.KernelIdeal.Points
import proofs.«177678_j52742198395363_2_alg».proof.Proof.Gen.KernelIdeal.Frame
import proofs.«177678_j52742198395363_2_alg».proof.Proof.Gen.ReferenceIdeal
import proofs.«177678_j52742198395363_2_alg».proof.Proof.Gen.KernelIdeal.Value
import proofs.«177678_j52742198395363_2_alg».proof.Proof.Gen.ReferenceIdeal.Run
import proofs.«177678_j52742198395363_2_alg».proof.Proof.Gen.ReferenceIdeal.Read
import proofs.«177678_j52742198395363_2_alg».proof.Proof.Gen.Pre_finite_inputs
import proofs.«177678_j52742198395363_2_alg».proof.Proof.BlockCover
import proofs.«177678_j52742198395363_2_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two programs' scales are the same host operations of the same tensor. -/
theorem scaleAct_eq (x : Cert.ReferenceIdeal.S4096x2048.Idx → EReal) :
    Cert.ReferenceIdeal.Read.val_main_v2 (F := Ideal) x ix0 = Cert.KernelIdeal.Prefix.scaleAct x ix0 := rfl

theorem scaleWgt_eq (w : Cert.ReferenceIdeal.S8192x2048.Idx → EReal) :
    Cert.ReferenceIdeal.Read.val_main_v11 (F := Ideal) w ix0 = Cert.KernelIdeal.Prefix.scaleWgt w ix0 := rfl

/-- From memories agreeing on the arguments the kernel's result array ends at the specification of its arguments
    (block by block, then tiled) and the reference's at the same specification of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.Spec.result_eq, scaleAct_eq, scaleWgt_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
